-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S128x500000 : Shape := ⟨2, ![128, 500000]⟩
abbrev S128x128 : Shape := ⟨2, ![128, 128]⟩
abbrev S128 : Shape := ⟨1, ![128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S500000x128 .f32) (main_arg1 : IVec S128x500000 32) (main_arg2 : FVec F S128x128 .f32) (main_arg3 : FVec F S128 .f32) (main_arg4 : FVec F S128x128 .f32) (main_arg5 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S500000x128 : Shape := ⟨2, ![500000, 128]⟩
abbrev S128x500000 : Shape := ⟨2, ![128, 500000]⟩
abbrev S128x128 : Shape := ⟨2, ![128, 128]⟩
abbrev S128 : Shape := ⟨1, ![128]⟩
abbrev S_ : Shape := ⟨0, ![]⟩
abbrev S503808x128 : Shape := ⟨2, ![503808, 128]⟩
abbrev S128x503808 : Shape := ⟨2, ![128, 503808]⟩
abbrev S1x128 : Shape := ⟨2, ![1, 128]⟩
abbrev S4096x128 : Shape := ⟨2, ![4096, 128]⟩
abbrev S128x4096 : Shape := ⟨2, ![128, 4096]⟩

abbrev nBuf : Space → Nat
  | .hbm => 15
  | .vmem => 10
  | .smem => 0
  | _ => 0

abbrev bufTy : (tb : Table) → Fin (tcTables nBuf tb) → BufTy
  | .hbm, ⟨0, _⟩ => ⟨S500000x128, .f32⟩
  | .hbm, ⟨1, _⟩ => ⟨S128x500000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S_, .f32⟩
  | .hbm, ⟨8, _⟩ => ⟨S503808x128, .f32⟩
  | .hbm, ⟨9, _⟩ => ⟨S_, .i32⟩
  | .hbm, ⟨10, _⟩ => ⟨S_, .i32⟩
  | .hbm, ⟨11, _⟩ => ⟨S128x503808, .i32⟩
  | .hbm, ⟨12, _⟩ => ⟨S1x128, .f32⟩
  | .hbm, ⟨13, _⟩ => ⟨S1x128, .f32⟩
  | .hbm, ⟨14, _⟩ => ⟨S128x128, .f32⟩
  | .local _ .vmem, ⟨0, _⟩ => ⟨S4096x128, .f32⟩
  | .local _ .vmem, ⟨1, _⟩ => ⟨S4096x128, .f32⟩
  | .local _ .vmem, ⟨2, _⟩ => ⟨S128x4096, .i32⟩
  | .local _ .vmem, ⟨3, _⟩ => ⟨S128x4096, .i32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![123], ![false]⟩

def k0_cond2 (i : grid0.Coords) : BitVec 1 :=
  let arg0 : BitVec 32 := BitVec.ofNat 32 (i 0).val
  let c122_i32 : BitVec 32 := 122#32
  let v32 : BitVec 1 := Scalar.cmpi .eq arg0 c122_i32
  let v33 : BitVec 32 := Scalar.extui v32
  let c0_i32_18 : BitVec 32 := 0#32
  let v34 : BitVec 1 := Scalar.cmpi .ne v33 c0_i32_18
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  pads_S500000x128_S503808x128_038080_000 : S500000x128.Pads (![0, 0] : Fin 2 → Nat) ![3808, 0] ![0, 0] S503808x128
  h_S_ : 0 < S_.numel
  pads_S128x500000_S128x503808_000_038080 : S128x500000.Pads (![0, 0] : Fin 2 → Nat) ![0, 3808] ![0, 0] S128x503808
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  dot_S4096x128_S128x128_S4096x128_1_0_0_1_n_n_wf : DotDims.WF S4096x128 S128x128 S4096x128 [1] [0] [0] [1] [] []
  dot_S128x4096_S4096x128_S128x128_1_0_0_1_n_n_wf : DotDims.WF S128x4096 S4096x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S503808x128.size a
  hwx0_0 : ∀ i : grid0.Coords, EltTy.bits .f32 = 32 ∨ (Rect.block (s := S503808x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x503808.size a
  hwx0_1 : ∀ i : grid0.Coords, EltTy.bits .i32 = 32 ∨ (Rect.block (s := S128x503808) S128x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S128x4096_S4096x128_S128x128_1_0_0_1_n_n : DotDims S128x4096 S4096x128 S128x128 where
  lhsContracting := [1]
  rhsContracting := [0]
  lhsNonContracting := [0]
  rhsNonContracting := [1]
  lhsBatch := []
  rhsBatch := []
  wf := dot_S128x4096_S4096x128_S128x128_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S128x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S500000x128 : Shape := ⟨2, ![500000, 128]⟩
abbrev S128x500000 : Shape := ⟨2, ![128, 500000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S128x500000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S500000x128, .f32⟩
  | .hbm, ⟨7, _⟩ => ⟨S1x128, .f32⟩
  | .hbm, ⟨8, _⟩ => ⟨S500000x128, .f32⟩
  | .hbm, ⟨9, _⟩ => ⟨S500000x128, .f32⟩
  | .hbm, ⟨10, _⟩ => ⟨S500000x128, .f32⟩
  | .hbm, ⟨11, _⟩ => ⟨S500000x128, .f32⟩
  | .hbm, ⟨12, _⟩ => ⟨S_, .f32⟩
  | .hbm, ⟨13, _⟩ => ⟨S500000x128, .f32⟩
  | .hbm, ⟨14, _⟩ => ⟨S500000x128, .f32⟩
  | .hbm, ⟨15, _⟩ => ⟨S_, .f32⟩
  | .hbm, ⟨16, _⟩ => ⟨S500000x128, .f32⟩
  | .hbm, ⟨17, _⟩ => ⟨S500000x128, .f32⟩
  | .hbm, ⟨18, _⟩ => ⟨S500000x128, .f32⟩
  | .hbm, ⟨19, _⟩ => ⟨S1x128, .f32⟩
  | .hbm, ⟨20, _⟩ => ⟨S500000x128, .f32⟩
  | .hbm, ⟨21, _⟩ => ⟨S500000x128, .f32⟩
  | .hbm, ⟨22, _⟩ => ⟨S128x500000, .f32⟩
  | .hbm, ⟨23, _⟩ => ⟨S500000x128, .f32⟩
  | .hbm, ⟨24, _⟩ => ⟨S128x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  dot_S500000x128_S128x128_S500000x128_1_0_0_1_n_n_wf : DotDims.WF S500000x128 S128x128 S500000x128 [1] [0] [0] [1] [] []
  dot_S128x500000_S500000x128_S128x128_1_0_0_1_n_n_wf : DotDims.WF S128x500000 S500000x128 S128x128 [1] [0] [0] [1] [] []

variable [Facts₀]

def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S128x500000_S500000x128_S128x128_1_0_0_1_n_n : DotDims S128x500000 S500000x128 S128x128 where
  lhsContracting := [1]
  rhsContracting := [0]
  lhsNonContracting := [0]
  rhsNonContracting := [1]
  lhsBatch := []
  rhsBatch := []
  wf := dot_S128x500000_S500000x128_S128x128_1_0_0_1_n_n_wf

class Facts : Prop extends Facts₀ where

variable [Facts]
-- ==== Proof.Cases.lean ====
/-
  What one grid step leaves behind, as a value.

  The body keeps a running [128, 128] total in a scratch block. At every step it loads a block of 4096 node rows, the
  matching 4096 columns of the ownership weights, the two weight matrices and the two bias rows, and stores
  `step(total)` back into the scratch, where `step` adds the block's pooled gated contribution to what the scratch held.
  At the first step the scratch is first overwritten with zeros, so that step leaves `step(0)`; at the last step the
  freshly stored total is read back and copied to the output block. Each of the three cases therefore leaves the same
  function of the loaded blocks and of the previous total; the lemmas below say so for the scratch in each case and for
  the output block in the last one. They hold at any float instance.
-/
import proofs.«113481_j21801253994883_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- Every load and store of the body goes through the whole block, at offsets zero. -/
theorem hz : (![0, 0] : Fin 2 → Nat) = fun _ => 0 := funext fun a => by fin_cases a <;> rfl

/-- One step: the previous total plus the block's pooled gated contribution (the body's one arithmetic payload, with
    the loads named by what they hold: node rows, ownership columns, the two matrices, the two bias rows). -/
abbrev step (x : Vec F S4096x128 .f32) (mk : Vec F S128x4096 .i32) (wt : Vec F S128x128 .f32) (bt : Vec F S1x128 .f32)
    (wg : Vec F S128x128 .f32) (bg : Vec F S1x128 .f32) (acc : Vec F S128x128 .f32) : Vec F S128x128 .f32 :=
  k0_pay2 x wt wg bt bg mk acc

/-- A middle step leaves `step` of the previous total in the scratch: one store covering the block, its loads reading
    the whole buffers. -/
theorem scratch_mid (c : Dev nD) (i : grid0.Coords) (a1 : Memref sig .tc .vmem S4096x128 .f32) (h1 : a1.IsWhole) (a2 : Memref sig .tc .vmem S128x4096 .i32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S128x128 .f32) (h7 : a7.IsWhole) (a8 : Memref sig .tc .vmem S128x128 .f32) (h8 : a8.IsWhole) (hc0 : ¬cond0_0 i) (hc1 : ¬cond0_1 i) (x0 : Vec F S4096x128 .f32) (x1 : Vec F S128x4096 .i32) (x2 : Vec F S128x128 .f32) (x3 : Vec F S1x128 .f32) (x4 : Vec F S128x128 .f32) (x5 : Vec F S1x128 .f32) (xs0 : Vec F S128x128 .f32) :
    sout0_B_0 c i a1 h1 a2 h2 a3 h3 a4 h4 a5 h5 a6 h6 a7 h7 a8 h8 hc0 hc1 x0 x1 x2 x3 x4 x5 xs0 = step x0 x1 x2 x3 x4 x5 xs0 := by
  unfold sout0_B_0
  rw [View.read_writes_eq_canon _ _ _ (scover0_B_0 c i a1 h1 a2 h2 a3 h3 a4 h4 a5 h5 a6 h6 a7 h7 a8 h8 hc0 hc1 x0 x1 x2 x3 x4 x5 xs0)]
  unfold kernelRun0_B
  dsimp only
  rw [View.canon_unit_zero hz]
  simp only [View.readAt_eq_ld, h1.read_unread, h2.read_unread, h3.read_unread, h4.read_unread, h5.read_unread, h6.read_unread, h8.read_unread,
    View.ld_unit_zero (S := S4096x128) hz, View.ld_unit_zero (S := S128x4096) hz, View.ld_unit_zero (S := S128x128) hz, View.ld_unit_zero (S := S1x128) hz]

/-- The first step overwrites the scratch with zeros, reads them back, and leaves `step` of the zero block. -/
theorem scratch_first (c : Dev nD) (i : grid0.Coords) (a1 : Memref sig .tc .vmem S4096x128 .f32) (h1 : a1.IsWhole) (a2 : Memref sig .tc .vmem S128x4096 .i32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S128x128 .f32) (h7 : a7.IsWhole) (a8 : Memref sig .tc .vmem S128x128 .f32) (h8 : a8.IsWhole) (hc0 : cond0_0 i) (hc1 : ¬cond0_1 i) (x0 : Vec F S4096x128 .f32) (x1 : Vec F S128x4096 .i32) (x2 : Vec F S128x128 .f32) (x3 : Vec F S1x128 .f32) (x4 : Vec F S128x128 .f32) (x5 : Vec F S1x128 .f32) :
    sout0_A_0 c i a1 h1 a2 h2 a3 h3 a4 h4 a5 h5 a6 h6 a7 h7 a8 h8 hc0 hc1 x0 x1 x2 x3 x4 x5 = step x0 x1 x2 x3 x4 x5 (k0_pay1 (F := F)) := by
  unfold sout0_A_0
  rw [View.read_writes_eq_canon _ _ _ (scover0_A_0 c i a1 h1 a2 h2 a3 h3 a4 h4 a5 h5 a6 h6 a7 h7 a8 h8 hc0 hc1 x0 x1 x2 x3 x4 x5)]
  unfold kernelRun0_A
  dsimp only
  sl_unfold_words
  rw [View.canon_cons_unit_zero (S := S128x128) hz, View.readCov_unit_zero (S := S128x128) _ hz]
  simp only [View.readAt_eq_ld, h1.read_unread, h2.read_unread, h3.read_unread, h4.read_unread, h5.read_unread, h6.read_unread,
    View.ld_unit_zero (S := S4096x128) hz, View.ld_unit_zero (S := S128x4096) hz, View.ld_unit_zero (S := S128x128) hz, View.ld_unit_zero (S := S1x128) hz]

/-- The last step leaves `step` of the previous total in the scratch, as a middle step does; -/
theorem scratch_last (c : Dev nD) (i : grid0.Coords) (a1 : Memref sig .tc .vmem S4096x128 .f32) (h1 : a1.IsWhole) (a2 : Memref sig .tc .vmem S128x4096 .i32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S128x128 .f32) (h7 : a7.IsWhole) (a8 : Memref sig .tc .vmem S128x128 .f32) (h8 : a8.IsWhole) (hc0 : ¬cond0_0 i) (hc1 : cond0_1 i) (x0 : Vec F S4096x128 .f32) (x1 : Vec F S128x4096 .i32) (x2 : Vec F S128x128 .f32) (x3 : Vec F S1x128 .f32) (x4 : Vec F S128x128 .f32) (x5 : Vec F S1x128 .f32) (xs0 : Vec F S128x128 .f32) :
    sout0_C_0 c i a1 h1 a2 h2 a3 h3 a4 h4 a5 h5 a6 h6 a7 h7 a8 h8 hc0 hc1 x0 x1 x2 x3 x4 x5 xs0 = step x0 x1 x2 x3 x4 x5 xs0 := by
  unfold sout0_C_0
  rw [View.read_writes_eq_canon _ _ _ (scover0_C_0 c i a1 h1 a2 h2 a3 h3 a4 h4 a5 h5 a6 h6 a7 h7 a8 h8 hc0 hc1 x0 x1 x2 x3 x4 x5 xs0)]
  unfold kernelRun0_C
  dsimp only
  sl_unfold_words
  rw [View.canon_unit_zero hz]
  simp only [View.readAt_eq_ld, h1.read_unread, h2.read_unread, h3.read_unread, h4.read_unread, h5.read_unread, h6.read_unread, h8.read_unread,
    View.ld_unit_zero (S := S4096x128) hz, View.ld_unit_zero (S := S128x4096) hz, View.ld_unit_zero (S := S128x128) hz, View.ld_unit_zero (S := S1x128) hz]

/-- and copies that freshly stored total, read back whole, into the output block. -/
theorem output_last (c : Dev nD) (i : grid0.Coords) (a1 : Memref sig .tc .vmem S4096x128 .f32) (h1 : a1.IsWhole) (a2 : Memref sig .tc .vmem S128x4096 .i32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S128x128 .f32) (h7 : a7.IsWhole) (a8 : Memref sig .tc .vmem S128x128 .f32) (h8 : a8.IsWhole) (hc0 : ¬cond0_0 i) (hc1 : cond0_1 i) (x0 : Vec F S4096x128 .f32) (x1 : Vec F S128x4096 .i32) (x2 : Vec F S128x128 .f32) (x3 : Vec F S1x128 .f32) (x4 : Vec F S128x128 .f32) (x5 : Vec F S1x128 .f32) (xs0 : Vec F S128x128 .f32) :
    out0_C_6 c i a1 h1 a2 h2 a3 h3 a4 h4 a5 h5 a6 h6 a7 h7 a8 h8 hc0 hc1 x0 x1 x2 x3 x4 x5 xs0 = step x0 x1 x2 x3 x4 x5 xs0 := by
  unfold out0_C_6
  rw [View.read_writes_eq_canon _ _ _ (cover0_C_6 c i a1 h1 a2 h2 a3 h3 a4 h4 a5 h5 a6 h6 a7 h7 a8 h8 hc0 hc1 x0 x1 x2 x3 x4 x5 xs0)]
  unfold kernelRun0_C
  dsimp only
  sl_unfold_words
  rw [View.canon_unit_zero hz, View.readCov_unit_zero (S := S128x128) _ hz]
  simp only [View.readAt_eq_ld, h1.read_unread, h2.read_unread, h3.read_unread, h4.read_unread, h5.read_unread, h6.read_unread, h8.read_unread,
    View.ld_unit_zero (S := S4096x128) hz, View.ld_unit_zero (S := S128x4096) hz, View.ld_unit_zero (S := S128x128) hz, View.ld_unit_zero (S := S1x128) hz]

end Cert.KernelIdeal.Acc

end
-- ==== Proof.Total.lean ====
/-
  The accumulation across the grid, and the result array.

  The grid has 123 points. What the scratch holds after point n is `step` of the point's blocks applied to what it held
  after point n − 1, starting from `step` of the zero block at point 0: a running total, defined here by recursion on the
  point. The output block is written once, at the last point (122), with that point's total, and its one block is the
  whole [128, 128] result array; so the result array ends holding the total after point 122. All of this holds at any
  float instance.
-/
import proofs.«113481_j21801253994883_1_alg».proof.Proof.Cases
import proofs.«113481_j21801253994883_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-- `step` at point `t`'s blocks: node rows, ownership columns, the two matrices and the two bias rows as the windows
    hold them there. -/
abbrev stepAt (c : Dev nD) (t : Fin cfg0.N) (acc : Vec F S128x128 .f32) : Vec F S128x128 .f32 :=
  step (iblk m c 0 t) (iblk m c 1 t) (iblk m c 2 t) (iblk m c 3 t) (iblk m c 4 t) (iblk m c 5 t) acc

/-- The first point leaves `step` of the zero block in the scratch. -/
theorem point_first (c : Dev nD) (t : Fin cfg0.N) (h0 : t.val % 123 = 0) (h1 : ¬t.val % 123 = 122) :
    (outsAt0 m c t.val t.isLt).2 = stepAt m c t (k0_pay1 (F := F)) := by
  rw [outsAt0_A m c t h0 h1]
  exact scratch_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- A middle point leaves `step` of what the point before left. -/
theorem point_mid (c : Dev nD) (t : Fin cfg0.N) (h0 : ¬t.val % 123 = 0) (h1 : ¬t.val % 123 = 122) :
    (outsAt0 m c t.val t.isLt).2
      = stepAt m c t (outsAt0 m c (t.val - 1) (Nat.lt_of_le_of_lt (Nat.sub_le _ _) t.isLt)).2 := by
  rw [outsAt0_B m c t h0 h1]
  exact scratch_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) _

/-- The last point leaves the same in the scratch, -/
theorem point_last (c : Dev nD) (t : Fin cfg0.N) (h0 : ¬t.val % 123 = 0) (h1 : t.val % 123 = 122) :
    (outsAt0 m c t.val t.isLt).2
      = stepAt m c t (outsAt0 m c (t.val - 1) (Nat.lt_of_le_of_lt (Nat.sub_le _ _) t.isLt)).2 := by
  rw [outsAt0_C m c t h0 h1]
  exact scratch_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) _

/-- and in the output block. -/
theorem point_last_out (c : Dev nD) (t : Fin cfg0.N) (h0 : ¬t.val % 123 = 0) (h1 : t.val % 123 = 122) :
    (outsAt0 m c t.val t.isLt).1
      = stepAt m c t (outsAt0 m c (t.val - 1) (Nat.lt_of_le_of_lt (Nat.sub_le _ _) t.isLt)).2 := by
  rw [outsAt0_C m c t h0 h1]
  exact output_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) _

/-- The running total after point `n`. -/
def total (c : Dev nD) : (n : ℕ) → n < cfg0.N → Vec F S128x128 .f32
  | 0, h => stepAt m c ⟨0, h⟩ (k0_pay1 (F := F))
  | n + 1, h => stepAt m c ⟨n + 1, h⟩ (total c n (Nat.lt_of_succ_lt h))

theorem total_zero (c : Dev nD) (h : 0 < cfg0.N) : total m c 0 h = stepAt m c ⟨0, h⟩ (k0_pay1 (F := F)) := rfl

theorem total_succ (c : Dev nD) (n : ℕ) (h : n + 1 < cfg0.N) :
    total m c (n + 1) h = stepAt m c ⟨n + 1, h⟩ (total m c n (Nat.lt_of_succ_lt h)) := rfl

/-- The scratch after point `n` holds the running total: by induction on the point. -/
theorem scratch_eq_total (c : Dev nD) : ∀ (n : ℕ) (h : n < cfg0.N), (outsAt0 m c n h).2 = total m c n h
  | 0, h => point_first m c ⟨0, h⟩ (Nat.zero_mod _) (by show ¬(0 : ℕ) % 123 = 122; decide)
  | n + 1, h => by
    have hN : n + 1 < 123 := lt_of_lt_of_eq h (show cfg0.N = 123 from N_0)
    have h0 : ¬(⟨n + 1, h⟩ : Fin cfg0.N).val % 123 = 0 := by dsimp only; omega
    have ih := scratch_eq_total c n (Nat.lt_of_succ_lt h)
    rw [total_succ]
    by_cases h1 : (⟨n + 1, h⟩ : Fin cfg0.N).val % 123 = 122
    · refine (point_last m c ⟨n + 1, h⟩ h0 h1).trans ?_
      exact congrArg (stepAt m c ⟨n + 1, h⟩) ih
    · refine (point_mid m c ⟨n + 1, h⟩ h0 h1).trans ?_
      exact congrArg (stepAt m c ⟨n + 1, h⟩) ih

/-- The last point. -/
abbrev tLast : Fin cfg0.N := ⟨122, by rw [show cfg0.N = 123 from N_0]; decide⟩

/-- The result: the running total after the last point, as contents of the result array. -/
abbrev result (c : Dev nD) : Buf (Elt F) ((c : Thread nD τ).loc main_v4) := total m c 122 (tLast).isLt

/-- The one write-back, at the last point, writes the total: the output's block at offsets zero is the whole array. -/
theorem flushed_eq (c : Dev nD) (t : Fin cfg0.N) (hf : (cfg0.win 6).flush t = true) :
    (dats m 0 c).flushed 6 t = ((cfg0.win 6).blk t).view.read (Elt F) (result m c) := by
  have hN : cfg0.N = 123 := N_0
  have h122 : t.val = 122 := by have := (flush0_6 t).mp hf; have := t.isLt; omega
  obtain rfl : t = tLast := Fin.ext h122
  rw [Cert.KernelIdeal.Value.flushed6]
  have e : (outsAt0 m c (tLast).val (tLast).isLt).1 = result m c := by
    refine (point_last_out m c tLast (by decide) (by decide)).trans ?_
    exact congrArg (stepAt m c tLast) (scratch_eq_total m c 121 _)
  rw [e]
  have hz' : (fun a => win0_6.index tLast a * main_v4.ty.shape.size a) = fun _ => 0 := funext fun a => by fin_cases a <;> decide
  exact (Memref.read_access_unit_zero (Elt F) main_v4 hz' (fun a => by rw [congrFun hz' a]; simp) (result m c)).symm

/-- The last point's block covers the result array. -/
theorem cover (i : S128x128.Idx) : ∃ t : Fin cfg0.N, (cfg0.win 6).flush t = true ∧ i ∈ ((cfg0.win 6).blk t).view.set := by
  have h0 : (i 0 : Nat) < 128 := (i 0).isLt
  have h1 : (i 1 : Nat) < 128 := (i 1).isLt
  refine ⟨tLast, (flush0_6 tLast).mpr (by decide), ?_⟩
  show i ∈ ((View.whole main_v4).slice (win0_6.rect tLast)).set
  rw [View.set_slice_whole, Rect.mem_set_unit]
  intro a
  match a with
  | ⟨0, _⟩ => show win0_6.index tLast 0 * win0_6.size 0 ≤ (i 0 : Nat) ∧ (i 0 : Nat) < win0_6.index tLast 0 * win0_6.size 0 + win0_6.xsize (grid0.coords tLast) 0
              rw [show win0_6.index tLast 0 * win0_6.size 0 = 0 from by decide +kernel, show win0_6.xsize (grid0.coords tLast) 0 = 128 from by decide +kernel]; omega
  | ⟨1, _⟩ => show win0_6.index tLast 1 * win0_6.size 1 ≤ (i 1 : Nat) ∧ (i 1 : Nat) < win0_6.index tLast 1 * win0_6.size 1 + win0_6.xsize (grid0.coords tLast) 1
              rw [show win0_6.index tLast 1 * win0_6.size 1 = 0 from by decide +kernel, show win0_6.xsize (grid0.coords tLast) 1 = 128 from by decide +kernel]; omega

/-- So the result array ends holding the total after the last point. -/
theorem final (c : Dev nD) : (dats m 0 c).arrAt 6 cfg0.N = result m c :=
  (dats m 0 c).arrAt_eq_of_cover 6 (result m c) (flushed_eq m c) cover

/-- The run, read: the result array at the total, the arguments unchanged. -/
theorem run : θ_run defs (onTc (τ := τ) (main (F := F))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Acc

end
-- ==== Proof.Spec.lean ====
/-
  The pooled gated aggregation as one function of the argument arrays, index by index, on the extended reals.

  For node features X [500000, 128], integer ownership weights M [128, 500000], two weight matrices Wt, Wg [128, 128] and
  two bias vectors bt, bg [128], the result at (b, d) is

      Σ_n  M(b, n) · ( (Σ_s X(n, s)·Wt(s, d) + bt(d)) · σ(Σ_s X(n, s)·Wg(s, d) + bg(d)) ),

  with σ(y) = 1 / (1 + e^(−y)) and the integer M(b, n) read signed. Every node contributes one term to every graph b;
  a node of weight zero contributes zero whatever its features are, because 0 · x = 0 for every extended real x.
-/
import Idealize.ShloMosaic.PureOps.Ideal
import Idealize.ShloMosaic.Lib.ValueIdx

noncomputable section

open scoped BigOperators

namespace Cert.Pool

open Idealize.ShloMosaic Idealize.ShloMosaic.ValueIdx

/-- A feature row against one weight column, plus that column's bias: Σ_s x(s)·w(s) + β. -/
def affine (x w : Fin 128 → EReal) (β : EReal) : EReal := (∑ s : Fin 128, x s * w s) + β

/-- A node's gated value at one output column: its data entry times the sigmoid of its gate entry. -/
def gated (x wt wg : Fin 128 → EReal) (βt βg : EReal) : EReal :=
  affine x wt βt * Ideal.logistic (affine x wg βg)

/-- An integer weight as an extended real (the integer read signed, exactly). -/
def weight (z : BitVec 32) : EReal := ((z.toInt : ℝ) : EReal)

/-- The zero weight is zero. -/
theorem weight_zero : weight 0#32 = 0 := by
  unfold weight
  simp

/-- Node n's contribution to graph b at column d. -/
def term (X : (⟨2, ![500000, 128]⟩ : Shape).Idx → EReal) (M : (⟨2, ![128, 500000]⟩ : Shape).Idx → BitVec 32)
    (Wt Wg : (⟨2, ![128, 128]⟩ : Shape).Idx → EReal) (bt bg : (⟨1, ![128]⟩ : Shape).Idx → EReal)
    (b d : Fin 128) (n : Fin 500000) : EReal :=
  weight (M (ix2 b n)) * gated (fun s => X (ix2 n s)) (fun s => Wt (ix2 s d)) (fun s => Wg (ix2 s d)) (bt (ix1 d)) (bg (ix1 d))

/-- The pooled result: at (b, d) the sum of every node's contribution. -/
def pooled (X : (⟨2, ![500000, 128]⟩ : Shape).Idx → EReal) (M : (⟨2, ![128, 500000]⟩ : Shape).Idx → BitVec 32)
    (Wt Wg : (⟨2, ![128, 128]⟩ : Shape).Idx → EReal) (bt bg : (⟨1, ![128]⟩ : Shape).Idx → EReal) :
    (⟨2, ![128, 128]⟩ : Shape).Idx → EReal :=
  fun i => ∑ n : Fin 500000, term X M Wt Wg bt bg (i 0) (i 1) n

/-- The contributions as a sequence over all naturals, zero from 500000 on: the form in which a zero-padded,
    block-by-block accumulation meets the plain sum. -/
def termN (X : (⟨2, ![500000, 128]⟩ : Shape).Idx → EReal) (M : (⟨2, ![128, 500000]⟩ : Shape).Idx → BitVec 32)
    (Wt Wg : (⟨2, ![128, 128]⟩ : Shape).Idx → EReal) (bt bg : (⟨1, ![128]⟩ : Shape).Idx → EReal)
    (b d : Fin 128) (n : ℕ) : EReal :=
  if h : n < 500000 then term X M Wt Wg bt bg b d ⟨n, h⟩ else 0

theorem termN_of_lt (X : (⟨2, ![500000, 128]⟩ : Shape).Idx → EReal) (M : (⟨2, ![128, 500000]⟩ : Shape).Idx → BitVec 32)
    (Wt Wg : (⟨2, ![128, 128]⟩ : Shape).Idx → EReal) (bt bg : (⟨1, ![128]⟩ : Shape).Idx → EReal)
    (b d : Fin 128) (n : ℕ) (h : n < 500000) : termN X M Wt Wg bt bg b d n = term X M Wt Wg bt bg b d ⟨n, h⟩ :=
  dif_pos h

theorem termN_of_ge (X : (⟨2, ![500000, 128]⟩ : Shape).Idx → EReal) (M : (⟨2, ![128, 500000]⟩ : Shape).Idx → BitVec 32)
    (Wt Wg : (⟨2, ![128, 128]⟩ : Shape).Idx → EReal) (bt bg : (⟨1, ![128]⟩ : Shape).Idx → EReal)
    (b d : Fin 128) (n : ℕ) (h : 500000 ≤ n) : termN X M Wt Wg bt bg b d n = 0 :=
  dif_neg (by omega)

/-- The pooled result at (b, d) is the sum of the sequence's first 500000 terms. -/
theorem pooled_eq_sum_termN (X : (⟨2, ![500000, 128]⟩ : Shape).Idx → EReal) (M : (⟨2, ![128, 500000]⟩ : Shape).Idx → BitVec 32)
    (Wt Wg : (⟨2, ![128, 128]⟩ : Shape).Idx → EReal) (bt bg : (⟨1, ![128]⟩ : Shape).Idx → EReal) (b d : Fin 128) :
    pooled X M Wt Wg bt bg (ix2 b d) = ∑ n : Fin 500000, termN X M Wt Wg bt bg b d n.val :=
  Finset.sum_congr rfl fun n _ => (termN_of_lt X M Wt Wg bt bg b d n.val n.isLt).symm

end Cert.Pool

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.StepAt.lean ====
/-
  One step of the accumulation read at an entry, on the extended reals.

  At (b, d) a step adds to the previous total the sum, over the 4096 node rows r of the block, of the ownership
  weight of graph b for row r times the row's gated value at column d. The three matrix products are plain sums of
  products there (an accumulator of zeros adds nothing), a change of float format is the identity, the bias row
  [1, 128] broadcast over the rows reads its one row, and the weights are the integers read signed.
-/
import proofs.«113481_j21801253994883_1_alg».proof.Proof.Cases
import proofs.«113481_j21801253994883_1_alg».proof.Proof.Spec
import proofs.«113481_j21801253994883_1_alg».proof.Proof.LibMatmul
import Idealize.ShloMosaic.Lib.ValueLayout
import Idealize.ShloMosaic.Lib.Pipeline.Value
import Idealize.ShloMosaic.PureOps.Ideal.Laws

noncomputable section

open scoped BigOperators

namespace Cert.KernelIdeal.Acc

open Cert.KernelIdeal Cert.KernelIdeal.Gen Idealize.ShloMosaic Idealize.ShloMosaic.ValueIdx

/-- The block's node rows against a weight matrix, at (r, d): Σ_s x(r, s)·w(s, d). -/
theorem rows_times_matrix (x : FVec Ideal S4096x128 .bf16) (w : FVec Ideal S128x128 .bf16) (r : Fin 4096) (d : Fin 128) :
    matmul dot_S4096x128_S128x128_S4096x128_1_0_0_1_n_n none x w (constant S4096x128 .f32 0x00000000#32) (ix2 r d)
      = ∑ s : Fin 128, x (ix2 r s) * w (ix2 s d) :=
  Cert.Lib.Matmul.matmul_zero_ix2 dot_S4096x128_S128x128_S4096x128_1_0_0_1_n_n none rfl rfl
    (fun j c => by
      unfold DotDims.lhsIdx
      rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
      rfl)
    (fun j c => dot_S4096x128_S128x128_S4096x128_1_0_0_1_n_n.lhsIdx_val_of_single rfl j c)
    (fun j c => dot_S4096x128_S128x128_S4096x128_1_0_0_1_n_n.rhsIdx_val_of_single rfl j c)
    (fun j c => by
      unfold DotDims.rhsIdx
      rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
      rfl)
    x w r d

/-- The ownership weights against the block's gated values, at (b, d): Σ_r m(b, r)·g(r, d). -/
theorem weights_times_rows (mk : FVec Ideal S128x4096 .bf16) (g : FVec Ideal S4096x128 .bf16) (b : Fin 128) (d : Fin 128) :
    matmul dot_S128x4096_S4096x128_S128x128_1_0_0_1_n_n none mk g (constant S128x128 .f32 0x00000000#32) (ix2 b d)
      = ∑ r : Fin 4096, mk (ix2 b r) * g (ix2 r d) :=
  Cert.Lib.Matmul.matmul_zero_ix2 dot_S128x4096_S4096x128_S128x128_1_0_0_1_n_n none rfl rfl
    (fun j c => by
      unfold DotDims.lhsIdx
      rw [dif_neg (show ¬(0 : Fin S128x4096.rank) ∈ dot_S128x4096_S4096x128_S128x128_1_0_0_1_n_n.lhsBatch by decide), dif_pos (show (0 : Fin S128x4096.rank) ∈ dot_S128x4096_S4096x128_S128x128_1_0_0_1_n_n.lhsNonContracting by decide)]
      rfl)
    (fun j c => dot_S128x4096_S4096x128_S128x128_1_0_0_1_n_n.lhsIdx_val_of_single rfl j c)
    (fun j c => dot_S128x4096_S4096x128_S128x128_1_0_0_1_n_n.rhsIdx_val_of_single rfl j c)
    (fun j c => by
      unfold DotDims.rhsIdx
      rw [dif_neg (show ¬(1 : Fin S4096x128.rank) ∈ dot_S128x4096_S4096x128_S128x128_1_0_0_1_n_n.rhsBatch by decide), dif_pos (show (1 : Fin S4096x128.rank) ∈ dot_S128x4096_S4096x128_S128x128_1_0_0_1_n_n.rhsNonContracting by decide)]
      rfl)
    mk g b d

/-- A bias row [1, 128] broadcast over the block's rows reads its one row. -/
theorem bias_row (v : FVec Ideal S1x128 .f32) (r : Fin 4096) (d : Fin 128) :
    broadcastTo S4096x128 (shapeCast S1x128 v shapeCasts_S1x128_S1x128) broadcasts_S1x128_S4096x128 (ix2 r d) = v (ix2 (0 : Fin 1) d) := by
  rw [shapeCast_self]
  exact broadcastTo_1b_ab_apply v broadcasts_S1x128_S4096x128 r d

/-- One step at (b, d): the previous total there plus the block's pooled gated contribution. -/
theorem step_apply (x : FVec Ideal S4096x128 .f32) (mk : IVec S128x4096 32) (wt : FVec Ideal S128x128 .f32)
    (bt : FVec Ideal S1x128 .f32) (wg : FVec Ideal S128x128 .f32) (bg : FVec Ideal S1x128 .f32)
    (acc : FVec Ideal S128x128 .f32) (b d : Fin 128) :
    step (F := Ideal) x mk wt bt wg bg acc (ix2 b d)
      = acc (ix2 b d) + ∑ r : Fin 4096, Cert.Pool.weight (mk (ix2 b r))
          * Cert.Pool.gated (fun s => x (ix2 r s)) (fun s => wt (ix2 s d)) (fun s => wg (ix2 s d))
              (bt (ix2 (0 : Fin 1) d)) (bg (ix2 (0 : Fin 1) d)) := by
  unfold step k0_pay2
  simp only [shapeCast_self (s := S4096x128), shapeCast_self (s := S128x4096), shapeCast_self (s := S128x128)]
  refine congrArg (acc (ix2 b d) + ·) ?_
  refine (weights_times_rows _ _ b d).trans ?_
  refine Finset.sum_congr rfl fun r _ => ?_
  refine congrArg (Cert.Pool.weight (mk (ix2 b r)) * ·) ?_
  unfold Cert.Pool.gated Cert.Pool.affine
  show (matmul (F := Ideal) dot_S4096x128_S128x128_S4096x128_1_0_0_1_n_n none _ _ (constant (F := Ideal) S4096x128 .f32 0x00000000#32) (ix2 r d) + broadcastTo S4096x128 _ _ (ix2 r d))
      * Ideal.logistic (matmul (F := Ideal) dot_S4096x128_S128x128_S4096x128_1_0_0_1_n_n none _ _ (constant (F := Ideal) S4096x128 .f32 0x00000000#32) (ix2 r d) + broadcastTo S4096x128 _ _ (ix2 r d)) = _
  rw [rows_times_matrix, rows_times_matrix, bias_row, bias_row]
  rfl

end Cert.KernelIdeal.Acc

end
-- ==== Proof.Blocks.lean ====
/-
  What the windows' blocks hold, in terms of the argument arrays.

  Before the grid runs the host pads the node array with 3808 rows (to 123·4096 rows) and the ownership array with
  3808 columns of the integer zero, and reshapes each bias vector to one row. At point t the node window holds rows
  4096·t … 4096·t + 4095 of the padded node array and the ownership window the same columns of the padded ownership
  array; the other four windows hold their whole arrays at every point. So at a row 4096·t + r below 500000 the blocks
  hold the arguments' own entries, and at a row from 500000 on the ownership block holds the integer zero (what the
  node block holds there will not matter). These hold at any float instance.
-/
import proofs.«113481_j21801253994883_1_alg».proof.Proof.Gen.KernelIdeal.Frame
import Idealize.ShloMosaic.Lib.Pipeline.Value
import Idealize.ShloMosaic.Lib.StableHlo.Run
import Idealize.ShloMosaic.Lib.KernelVsHost
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.StableHlo

namespace Cert.KernelIdeal.Acc

open Cert.KernelIdeal Cert.KernelIdeal.Gen Idealize.ShloMosaic.ValueIdx

variable {F : FTy → Type} [FloatOps F]
variable (m : (ℓ : Loc nD τ sig) → Buf (Elt F) ℓ)

/-! ## The index maps, decided once over the grid -/

theorem index_nodes : ∀ t : Fin cfg0.N, win0_0.index t 0 = t.val ∧ win0_0.index t 1 = 0 :=
  (by decide +kernel : ∀ t : Fin grid0.N, win0_0.index t 0 = t.val ∧ win0_0.index t 1 = 0)
theorem index_owners : ∀ t : Fin cfg0.N, win0_1.index t 0 = 0 ∧ win0_1.index t 1 = t.val :=
  (by decide +kernel : ∀ t : Fin grid0.N, win0_1.index t 0 = 0 ∧ win0_1.index t 1 = t.val)
theorem index_wt : ∀ t : Fin cfg0.N, win0_2.index t 0 = 0 ∧ win0_2.index t 1 = 0 :=
  (by decide +kernel : ∀ t : Fin grid0.N, win0_2.index t 0 = 0 ∧ win0_2.index t 1 = 0)
theorem index_bt : ∀ t : Fin cfg0.N, win0_3.index t 0 = 0 ∧ win0_3.index t 1 = 0 :=
  (by decide +kernel : ∀ t : Fin grid0.N, win0_3.index t 0 = 0 ∧ win0_3.index t 1 = 0)
theorem index_wg : ∀ t : Fin cfg0.N, win0_4.index t 0 = 0 ∧ win0_4.index t 1 = 0 :=
  (by decide +kernel : ∀ t : Fin grid0.N, win0_4.index t 0 = 0 ∧ win0_4.index t 1 = 0)
theorem index_bg : ∀ t : Fin cfg0.N, win0_5.index t 0 = 0 ∧ win0_5.index t 1 = 0 :=
  (by decide +kernel : ∀ t : Fin grid0.N, win0_5.index t 0 = 0 ∧ win0_5.index t 1 = 0)

/-! ## The arrays the host prepares -/

/-- The padded node array: the nodes with 3808 rows of the padding value after them. -/
theorem padded_nodes (c : Dev nD) : (V m c main_v0 : S503808x128.Idx → Elt F .f32)
    = pad S503808x128 ![0, 0] ![3808, 0] ![0, 0] (m ((c : Thread nD τ).loc main_arg0))
        (sitofp (F := F) .f32 (constantI S_ 32 0#32)) pads_S500000x128_S503808x128_038080_000 h_S_ := by
  dsimp only [V]
  simp only [hostOps0, hostOps0_1, hostOps0_2, hostOps0_3, hostOps0_4, List.flatten_cons, List.flatten_nil, List.append_nil,
    List.cons_append, List.nil_append]
  after_results
  rfl

/-- The padded ownership array: the weights with 3808 columns of the integer zero after them. -/
theorem padded_owners (c : Dev nD) : (V m c main_v1 : S128x503808.Idx → Elt F .i32)
    = pad S128x503808 ![0, 0] ![0, 3808] ![0, 0] (m ((c : Thread nD τ).loc main_arg1))
        (constantI S_ 32 0#32) pads_S128x500000_S128x503808_000_038080 h_S_ := by
  dsimp only [V]
  simp only [hostOps0, hostOps0_1, hostOps0_2, hostOps0_3, hostOps0_4, List.flatten_cons, List.flatten_nil, List.append_nil,
    List.cons_append, List.nil_append]
  after_results
  rfl

/-- The data bias as one row. -/
theorem row_bt (c : Dev nD) : (V m c main_v2 : S1x128.Idx → Elt F .f32)
    = shapeCast S1x128 (m ((c : Thread nD τ).loc main_arg3)) shapeCasts_S128_S1x128 := by
  dsimp only [V]
  simp only [hostOps0, hostOps0_1, hostOps0_2, hostOps0_3, hostOps0_4, List.flatten_cons, List.flatten_nil, List.append_nil,
    List.cons_append, List.nil_append]
  after_results
  rfl

/-- The gate bias as one row. -/
theorem row_bg (c : Dev nD) : (V m c main_v3 : S1x128.Idx → Elt F .f32)
    = shapeCast S1x128 (m ((c : Thread nD τ).loc main_arg5)) shapeCasts_S128_S1x128 := by
  dsimp only [V]
  simp only [hostOps0, hostOps0_1, hostOps0_2, hostOps0_3, hostOps0_4, List.flatten_cons, List.flatten_nil, List.append_nil,
    List.cons_append, List.nil_append]
  after_results
  rfl

/-! ## The blocks at a point -/

/-- The node block at point t, entry (r, s), is the padded node array at (4096·t + r, s). -/
theorem nodes_block_at (c : Dev nD) (t : Fin cfg0.N) (r : Fin 4096) (s : Fin 128) (i : S503808x128.Idx)
    (hi0 : (i 0).val = 4096 * t.val + r.val) (hi1 : (i 1).val = s.val) :
    (iblk m c 0 t : Vec F S4096x128 .f32) (ix2 r s) = (V m c main_v0 : S503808x128.Idx → Elt F .f32) i := by
  unfold iblk
  rw [View.read_apply]
  show V m c main_v0 _ = V m c main_v0 i
  refine congrArg (V m c main_v0) (funext fun a => Fin.ext ?_)
  match a with
  | ⟨0, _⟩ => show win0_0.index t 0 * 4096 + 1 * r.val = (i 0).val; rw [(index_nodes t).1, hi0]; omega
  | ⟨1, _⟩ => show win0_0.index t 1 * 128 + 1 * s.val = (i 1).val; rw [(index_nodes t).2, hi1]; omega

/-- The ownership block at point t, entry (b, r), is the padded ownership array at (b, 4096·t + r). -/
theorem owners_block_at (c : Dev nD) (t : Fin cfg0.N) (b : Fin 128) (r : Fin 4096) (i : S128x503808.Idx)
    (hi0 : (i 0).val = b.val) (hi1 : (i 1).val = 4096 * t.val + r.val) :
    (iblk m c 1 t : Vec F S128x4096 .i32) (ix2 b r) = (V m c main_v1 : S128x503808.Idx → Elt F .i32) i := by
  unfold iblk
  rw [View.read_apply]
  show V m c main_v1 _ = V m c main_v1 i
  refine congrArg (V m c main_v1) (funext fun a => Fin.ext ?_)
  match a with
  | ⟨0, _⟩ => show win0_1.index t 0 * 128 + 1 * b.val = (i 0).val; rw [(index_owners t).1, hi0]; omega
  | ⟨1, _⟩ => show win0_1.index t 1 * 4096 + 1 * r.val = (i 1).val; rw [(index_owners t).2, hi1]; omega

/-- Below row 500000 the node block holds the nodes' own entries. -/
theorem nodes_block (c : Dev nD) (t : Fin cfg0.N) (r : Fin 4096) (s : Fin 128) (h : 4096 * t.val + r.val < 500000) :
    (iblk m c 0 t : Vec F S4096x128 .f32) (ix2 r s)
      = m ((c : Thread nD τ).loc main_arg0) (ix2 (⟨4096 * t.val + r.val, h⟩ : Fin 500000) s) := by
  rw [nodes_block_at m c t r s (ix2 (⟨4096 * t.val + r.val, by omega⟩ : Fin 503808) s) rfl rfl, padded_nodes]
  refine pad_apply_of_inside _ _ _ _ _ _ _ _ _ fun a => ?_
  match a with
  | ⟨0, _⟩ => show 4096 * t.val + r.val = 0 + (4096 * t.val + r.val) * (0 + 1); omega
  | ⟨1, _⟩ => show s.val = 0 + s.val * (0 + 1); omega

/-- Below column 500000 the ownership block holds the weights' own entries. -/
theorem owners_block (c : Dev nD) (t : Fin cfg0.N) (b : Fin 128) (r : Fin 4096) (h : 4096 * t.val + r.val < 500000) :
    (iblk m c 1 t : Vec F S128x4096 .i32) (ix2 b r)
      = m ((c : Thread nD τ).loc main_arg1) (ix2 b (⟨4096 * t.val + r.val, h⟩ : Fin 500000)) := by
  rw [owners_block_at m c t b r (ix2 b (⟨4096 * t.val + r.val, by omega⟩ : Fin 503808)) rfl rfl, padded_owners]
  refine pad_apply_of_inside _ _ _ _ _ _ _ _ _ fun a => ?_
  match a with
  | ⟨0, _⟩ => show b.val = 0 + b.val * (0 + 1); omega
  | ⟨1, _⟩ => show 4096 * t.val + r.val = 0 + (4096 * t.val + r.val) * (0 + 1); omega

/-- From column 500000 on the ownership block holds the integer zero. -/
theorem owners_block_pad (c : Dev nD) (t : Fin cfg0.N) (b : Fin 128) (r : Fin 4096) (h : 500000 ≤ 4096 * t.val + r.val) :
    (iblk m c 1 t : Vec F S128x4096 .i32) (ix2 b r) = 0#32 := by
  have hN : cfg0.N = 123 := N_0
  have ht := t.isLt
  rw [owners_block_at m c t b r (ix2 b (⟨4096 * t.val + r.val, by have := r.isLt; omega⟩ : Fin 503808)) rfl rfl, padded_owners]
  refine (pad_apply_of_not_inside _ _ _ _ _ _ _ _ (1 : Fin 2) fun hh => ?_).trans rfl
  have h3 := hh.2.2
  change (4096 * t.val + r.val - 0) / (0 + 1) < 500000 at h3
  omega

/-- The data matrix's block is the matrix. -/
theorem wt_block (c : Dev nD) (t : Fin cfg0.N) (s d : Fin 128) :
    (iblk m c 2 t : Vec F S128x128 .f32) (ix2 s d) = m ((c : Thread nD τ).loc main_arg2) (ix2 s d) := by
  rw [← V_main_arg2 m c]
  unfold iblk
  rw [View.read_apply]
  show V m c main_arg2 _ = V m c main_arg2 _
  refine congrArg (V m c main_arg2) (funext fun a => Fin.ext ?_)
  match a with
  | ⟨0, _⟩ => show win0_2.index t 0 * 128 + 1 * s.val = s.val; rw [(index_wt t).1]; omega
  | ⟨1, _⟩ => show win0_2.index t 1 * 128 + 1 * d.val = d.val; rw [(index_wt t).2]; omega

/-- The gate matrix's block is the matrix. -/
theorem wg_block (c : Dev nD) (t : Fin cfg0.N) (s d : Fin 128) :
    (iblk m c 4 t : Vec F S128x128 .f32) (ix2 s d) = m ((c : Thread nD τ).loc main_arg4) (ix2 s d) := by
  rw [← V_main_arg4 m c]
  unfold iblk
  rw [View.read_apply]
  show V m c main_arg4 _ = V m c main_arg4 _
  refine congrArg (V m c main_arg4) (funext fun a => Fin.ext ?_)
  match a with
  | ⟨0, _⟩ => show win0_4.index t 0 * 128 + 1 * s.val = s.val; rw [(index_wg t).1]; omega
  | ⟨1, _⟩ => show win0_4.index t 1 * 128 + 1 * d.val = d.val; rw [(index_wg t).2]; omega

/-- The data bias row's block at (0, d) is the bias at d. -/
theorem bt_block (c : Dev nD) (t : Fin cfg0.N) (d : Fin 128) :
    (iblk m c 3 t : Vec F S1x128 .f32) (ix2 (0 : Fin 1) d) = m ((c : Thread nD τ).loc main_arg3) (ix1 d) := by
  have e : (iblk m c 3 t : Vec F S1x128 .f32) (ix2 (0 : Fin 1) d) = (V m c main_v2 : S1x128.Idx → Elt F .f32) (ix2 (0 : Fin 1) d) := by
    unfold iblk
    rw [View.read_apply]
    show V m c main_v2 _ = V m c main_v2 _
    refine congrArg (V m c main_v2) (funext fun a => Fin.ext ?_)
    match a with
    | ⟨0, _⟩ => show win0_3.index t 0 * 1 + 1 * 0 = 0; rw [(index_bt t).1]
    | ⟨1, _⟩ => show win0_3.index t 1 * 128 + 1 * d.val = d.val; rw [(index_bt t).2]; omega
  rw [e, row_bt]
  exact shapeCast_a_1a_apply _ shapeCasts_S128_S1x128 (0 : Fin 1) d

/-- The gate bias row's block at (0, d) is the bias at d. -/
theorem bg_block (c : Dev nD) (t : Fin cfg0.N) (d : Fin 128) :
    (iblk m c 5 t : Vec F S1x128 .f32) (ix2 (0 : Fin 1) d) = m ((c : Thread nD τ).loc main_arg5) (ix1 d) := by
  have e : (iblk m c 5 t : Vec F S1x128 .f32) (ix2 (0 : Fin 1) d) = (V m c main_v3 : S1x128.Idx → Elt F .f32) (ix2 (0 : Fin 1) d) := by
    unfold iblk
    rw [View.read_apply]
    show V m c main_v3 _ = V m c main_v3 _
    refine congrArg (V m c main_v3) (funext fun a => Fin.ext ?_)
    match a with
    | ⟨0, _⟩ => show win0_5.index t 0 * 1 + 1 * 0 = 0; rw [(index_bg t).1]
    | ⟨1, _⟩ => show win0_5.index t 1 * 128 + 1 * d.val = d.val; rw [(index_bg t).2]; omega
  rw [e, row_bg]
  exact shapeCast_a_1a_apply _ shapeCasts_S128_S1x128 (0 : Fin 1) d

end Cert.KernelIdeal.Acc

end
-- ==== Proof.LibBlockSum.lean ====
import Mathlib.Algebra.BigOperators.Fin
import Mathlib.Algebra.BigOperators.Group.Finset.Basic
import Mathlib.Logic.Equiv.Fin.Basic

/-!
# Sums taken block by block, and running totals

A sum over T·R entries is the sum over T blocks of the sums over the R entries of each block, entry r of block t being
entry R·t + r. A running total that starts at the first block's sum and adds one block's sum per step is, after
step n, the sum of the first n + 1 blocks' sums.
-/

open Finset

namespace Cert.LibBlockSum

variable {M : Type*} [AddCommMonoid M]

/-- A sum over T·R entries, taken block by block. -/
theorem sum_by_blocks (T R : ℕ) (f : Fin (T * R) → M) :
    ∑ i, f i = ∑ t : Fin T, ∑ r : Fin R, f (finProdFinEquiv (t, r)) := by
  rw [← Fintype.sum_prod_type']
  exact (Equiv.sum_comp finProdFinEquiv f).symm

/-- Entry r of block t is entry R·t + r. -/
theorem block_entry_val {T R : ℕ} (t : Fin T) (r : Fin R) : (finProdFinEquiv (t, r)).val = r.val + R * t.val := rfl

/-- The same with the entries numbered 0 … N − 1 for N = T·R: entry r of block t is entry R·t + r. -/
theorem sum_by_blocks_of_eq (T R N : ℕ) (hN : T * R = N) (f : Fin N → M) :
    ∑ i, f i = ∑ t : Fin T, ∑ r : Fin R, f ⟨R * t.val + r.val, by
      have h := (finProdFinEquiv (t, r)).isLt
      rw [show (finProdFinEquiv (t, r)).val = r.val + R * t.val from rfl] at h
      omega⟩ := by
  subst hN
  rw [sum_by_blocks T R f]
  refine Finset.sum_congr rfl fun t _ => Finset.sum_congr rfl fun r _ => congrArg f (Fin.ext ?_)
  exact Nat.add_comm _ _

/-- A running total after step n is the sum of the first n + 1 terms. -/
theorem running_total (s g : ℕ → M) (h0 : s 0 = g 0) (hs : ∀ n, s (n + 1) = s n + g (n + 1)) (n : ℕ) :
    s n = ∑ k ∈ range (n + 1), g k := by
  induction n with
  | zero => rw [h0, Finset.sum_range_one]
  | succ n ih => rw [hs, ih, Finset.sum_range_succ _ (n + 1)]

/-- The same, for a recurrence that is only known below a bound N. -/
theorem running_total_below (N : ℕ) (s g : ℕ → M) (h0 : s 0 = g 0) (hs : ∀ n, n + 1 < N → s (n + 1) = s n + g (n + 1))
    (n : ℕ) (hn : n < N) : s n = ∑ k ∈ range (n + 1), g k := by
  induction n with
  | zero => rw [h0, Finset.sum_range_one]
  | succ n ih => rw [hs n hn, ih (by omega), Finset.sum_range_succ _ (n + 1)]

end Cert.LibBlockSum
-- ==== Proof.LibPaddedBlocks.lean ====
import Mathlib.Algebra.BigOperators.Fin
import Mathlib.Algebra.BigOperators.Intervals
import proofs.«113481_j21801253994883_1_alg».proof.Proof.LibBlockSum

/-!
# A padded sequence summed block by block

A sequence of N terms is extended by zeros to T·R terms (N ≤ T·R) and summed block by block, T blocks of R terms,
term r of block t being term R·t + r. The zeros contribute nothing, so the blockwise sum is the sum of the N terms.
With the running total of `LibBlockSum` this reads an accumulator that adds one block's sum per step, started at the
first block's sum, as the plain sum of the N terms after the last step.
-/

open Finset

namespace Cert.LibPaddedBlocks

variable {M : Type*} [AddCommMonoid M]

/-- The blockwise sum of a sequence that vanishes from N on is the sum of its first N terms. -/
theorem sum_blocks_of_padded (T R N : ℕ) (hle : N ≤ T * R) (f : ℕ → M) (hpad : ∀ n, N ≤ n → f n = 0) :
    ∑ t : Fin T, ∑ r : Fin R, f (R * t.val + r.val) = ∑ n : Fin N, f n.val := by
  rw [← Cert.LibBlockSum.sum_by_blocks_of_eq T R (T * R) rfl (fun i => f i.val),
    Fin.sum_univ_eq_sum_range (fun i => f i) (T * R), Fin.sum_univ_eq_sum_range (fun i => f i) N]
  exact (Finset.sum_subset (Finset.range_mono hle) (fun x _ hx => hpad x (by
    rw [Finset.mem_range] at hx; omega))).symm

/-- A sum over the first T naturals is the sum over `Fin T`. -/
theorem sum_range_eq_sum_fin (T : ℕ) (g : ℕ → M) : ∑ k ∈ range T, g k = ∑ t : Fin T, g t.val :=
  (Fin.sum_univ_eq_sum_range g T).symm

end Cert.LibPaddedBlocks
-- ==== Proof.Bridge.lean ====
/-
  The kernel's result is the pooled gated aggregation.

  At (b, d) one step adds the block's contribution: the sum over the block's 4096 rows r of the term of node
  4096·t + r, where the terms from node 500000 on are zero because the padded ownership weight there is the integer
  zero and 0 · x = 0 for every extended real x. Starting from the zero block, the running total after point n is the sum
  of the contributions of blocks 0 … n; after the last point it is the blockwise sum of the zero-padded sequence of
  terms, which is the plain sum of the 500000 terms: the specification's `pooled`. Only the commutative monoid of
  extended reals under addition and `0 · x = 0` are used: no finiteness of the inputs is needed.
-/
import proofs.«113481_j21801253994883_1_alg».proof.Proof.Total
import proofs.«113481_j21801253994883_1_alg».proof.Proof.StepAt
import proofs.«113481_j21801253994883_1_alg».proof.Proof.Blocks
import proofs.«113481_j21801253994883_1_alg».proof.Proof.LibPaddedBlocks

noncomputable section

open scoped BigOperators

namespace Cert.KernelIdeal.Acc

open Cert.KernelIdeal Cert.KernelIdeal.Gen Idealize.ShloMosaic Idealize.ShloMosaic.TcCoe Idealize.ShloMosaic.ValueIdx
open Cert.Pool (termN term gated weight)

variable (m : (ℓ : Loc nD τ sig) → Buf (Elt Ideal) ℓ)

/-- The sequence of node terms for graph b and column d, from the kernel's argument arrays. -/
abbrev seq (c : Dev nD) (b d : Fin 128) : ℕ → EReal :=
  termN (m ((c : Thread nD τ).loc main_arg0)) (m ((c : Thread nD τ).loc main_arg1)) (m ((c : Thread nD τ).loc main_arg2))
    (m ((c : Thread nD τ).loc main_arg4)) (m ((c : Thread nD τ).loc main_arg3)) (m ((c : Thread nD τ).loc main_arg5)) b d

/-- Block t's contribution at (b, d): the sum of the terms of its 4096 rows. -/
abbrev blockSum (c : Dev nD) (b d : Fin 128) (t : ℕ) : EReal := ∑ r : Fin 4096, seq m c b d (4096 * t + r.val)

/-- Row r of block t contributes node 4096·t + r's term. -/
theorem row_term (c : Dev nD) (t : Fin cfg0.N) (b d : Fin 128) (r : Fin 4096) :
    weight ((iblk m c 1 t : Vec Ideal S128x4096 .i32) (ix2 b r))
        * gated (fun s => (iblk m c 0 t : Vec Ideal S4096x128 .f32) (ix2 r s))
            (fun s => (iblk m c 2 t : Vec Ideal S128x128 .f32) (ix2 s d))
            (fun s => (iblk m c 4 t : Vec Ideal S128x128 .f32) (ix2 s d))
            ((iblk m c 3 t : Vec Ideal S1x128 .f32) (ix2 (0 : Fin 1) d))
            ((iblk m c 5 t : Vec Ideal S1x128 .f32) (ix2 (0 : Fin 1) d))
      = seq m c b d (4096 * t.val + r.val) := by
  by_cases h : 4096 * t.val + r.val < 500000
  · refine Eq.trans ?_ (Cert.Pool.termN_of_lt _ _ _ _ _ _ b d (4096 * t.val + r.val) h).symm
    unfold Cert.Pool.term
    rw [owners_block m c t b r h, bt_block m c t d, bg_block m c t d,
      show (fun s => (iblk m c 0 t : Vec Ideal S4096x128 .f32) (ix2 r s))
          = fun s => m ((c : Thread nD τ).loc main_arg0) (ix2 (⟨4096 * t.val + r.val, h⟩ : Fin 500000) s) from
        funext fun s => nodes_block m c t r s h,
      show (fun s => (iblk m c 2 t : Vec Ideal S128x128 .f32) (ix2 s d))
          = fun s => m ((c : Thread nD τ).loc main_arg2) (ix2 s d) from funext fun s => wt_block m c t s d,
      show (fun s => (iblk m c 4 t : Vec Ideal S128x128 .f32) (ix2 s d))
          = fun s => m ((c : Thread nD τ).loc main_arg4) (ix2 s d) from funext fun s => wg_block m c t s d]
  · refine Eq.trans ?_ (Cert.Pool.termN_of_ge _ _ _ _ _ _ b d (4096 * t.val + r.val) (by omega)).symm
    rw [owners_block_pad m c t b r (by omega), Cert.Pool.weight_zero, zero_mul]

/-- One step at point t, at (b, d): the previous total there plus block t's contribution. -/
theorem stepAt_apply (c : Dev nD) (t : Fin cfg0.N) (acc : Vec Ideal S128x128 .f32) (b d : Fin 128) :
    stepAt m c t acc (ix2 b d) = acc (ix2 b d) + blockSum m c b d t.val := by
  refine (step_apply (iblk m c 0 t) (iblk m c 1 t) (iblk m c 2 t) (iblk m c 3 t) (iblk m c 4 t) (iblk m c 5 t) acc b d).trans ?_
  exact congrArg (acc (ix2 b d) + ·) (Finset.sum_congr rfl fun r _ => row_term m c t b d r)

/-- The block of zeros the first step starts from. -/
theorem zero_block_apply (i : S128x128.Idx) : (k0_pay1 (F := Ideal)) i = 0 := by
  unfold k0_pay1
  rw [shapeCast_self]
  exact Ideal.ofBits_zero_f32

/-- The running total after point n, at (b, d), is the sum of the contributions of blocks 0 … n. -/
theorem total_apply (c : Dev nD) (b d : Fin 128) : ∀ (n : ℕ) (h : n < cfg0.N),
    total m c n h (ix2 b d) = ∑ k ∈ Finset.range (n + 1), blockSum m c b d k
  | 0, h => by
    rw [total_zero, stepAt_apply, zero_block_apply, zero_add, Finset.sum_range_one]
  | n + 1, h => by
    rw [total_succ, stepAt_apply, total_apply c b d n (Nat.lt_of_succ_lt h), Finset.sum_range_succ _ (n + 1)]

/-- The kernel's result array is `pooled` of its argument arrays. -/
theorem result_eq_pooled (c : Dev nD) :
    result m c = Cert.Pool.pooled (m ((c : Thread nD τ).loc main_arg0)) (m ((c : Thread nD τ).loc main_arg1))
      (m ((c : Thread nD τ).loc main_arg2)) (m ((c : Thread nD τ).loc main_arg4)) (m ((c : Thread nD τ).loc main_arg3))
      (m ((c : Thread nD τ).loc main_arg5)) := by
  funext i
  obtain ⟨b, d, rfl⟩ : ∃ (b d : Fin 128), i = ix2 b d := ⟨i 0, i 1, eq_ix2 i⟩
  rw [Cert.Pool.pooled_eq_sum_termN]
  show total m c 122 _ (ix2 b d) = _
  rw [total_apply m c b d 122, Cert.LibPaddedBlocks.sum_range_eq_sum_fin 123 (blockSum m c b d)]
  exact Cert.LibPaddedBlocks.sum_blocks_of_padded 123 4096 500000 (by norm_num) (seq m c b d)
    (fun n hn => Cert.Pool.termN_of_ge _ _ _ _ _ _ b d n hn)

end Cert.KernelIdeal.Acc

end
-- ==== Proof.RefPooled.lean ====
/-
  The reference computes the pooled gated aggregation.

  Read one operation at a time, the reference's result at (b, d) is the sum over the 500000 nodes n of the ownership
  weight M(b, n), converted to a float, times node n's gated value at column d, the sigmoid spelled out as
  1 / (1 + e^(−y)); the two literals are the float one. That is the specification's `pooled` entry by entry: the
  sigmoid on the extended reals is that quotient by definition.
-/
import proofs.«113481_j21801253994883_1_alg».proof.Proof.Gen.ReferenceIdeal.Read
import proofs.«113481_j21801253994883_1_alg».proof.Proof.Spec
import Idealize.ShloMosaic.Lib.IdealHost

noncomputable section

open scoped BigOperators

namespace Cert.ReferenceIdeal.Pooled

open Cert.ReferenceIdeal Cert.ReferenceIdeal.Read Idealize.ShloMosaic Idealize.ShloMosaic.ValueIdx

/-- The reference's last stage is `pooled` of the arguments (nodes, ownership weights, data matrix and bias, gate
    matrix and bias). -/
theorem stage_eq_pooled (x0 : (⟨S500000x128, .f32⟩ : BufTy).Contents (Elt Ideal)) (x1 : (⟨S128x500000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v16 (F := Ideal) x0 x1 x2 x3 x4 x5 = Cert.Pool.pooled x0 x1 x2 x4 x3 x5 := by
  funext i
  obtain ⟨b, d, rfl⟩ : ∃ (b d : Fin 128), i = ix2 b d := ⟨i 0, i 1, eq_ix2 i⟩
  rw [val_main_v16_apply]
  unfold Cert.Pool.pooled
  refine Finset.sum_congr rfl fun n _ => ?_
  have el : lidx_main_v16 (ix2 b d) n = ix2 b n := funext fun a => Fin.ext (by
    match a with
    | ⟨0, _⟩ => rfl
    | ⟨1, _⟩ => rfl)
  have er : ridx_main_v16 (ix2 b d) n = ix2 n d := funext fun a => Fin.ext (by
    match a with
    | ⟨0, _⟩ => rfl
    | ⟨1, _⟩ => rfl)
  have e10l : ∀ k : Fin 128, lidx_main_v10 (ix2 n d) k = ix2 n k := fun k => funext fun a => Fin.ext (by
    match a with
    | ⟨0, _⟩ => rfl
    | ⟨1, _⟩ => rfl)
  have e10r : ∀ k : Fin 128, ridx_main_v10 (ix2 n d) k = ix2 k d := fun k => funext fun a => Fin.ext (by
    match a with
    | ⟨0, _⟩ => rfl
    | ⟨1, _⟩ => rfl)
  have e0l : ∀ k : Fin 128, lidx_main_v0 (ix2 n d) k = ix2 n k := fun k => funext fun a => Fin.ext (by
    match a with
    | ⟨0, _⟩ => rfl
    | ⟨1, _⟩ => rfl)
  have e0r : ∀ k : Fin 128, ridx_main_v0 (ix2 n d) k = ix2 k d := fun k => funext fun a => Fin.ext (by
    match a with
    | ⟨0, _⟩ => rfl
    | ⟨1, _⟩ => rfl)
  have e11 : idx_main_v11 (idx_main_v12 (ix2 n d)) = ix1 d := funext fun a => Fin.ext (by
    match a with
    | ⟨0, _⟩ => rfl)
  have e1 : idx_main_v1 (idx_main_v2 (ix2 n d)) = ix1 d := funext fun a => Fin.ext (by
    match a with
    | ⟨0, _⟩ => rfl)
  rw [el, er, val_main_v14_apply, val_main_v15_apply, val_main_v13_apply, val_main_v10_apply, val_main_v12_apply,
    val_main_v11_apply, val_main_v9_apply, val_main_v8_apply, val_main_cst_0_apply, val_main_v7_apply, val_main_v6_apply,
    val_main_cst_apply, val_main_v5_apply, val_main_v4_apply, val_main_v3_apply, val_main_v0_apply, val_main_v2_apply,
    val_main_v1_apply, e11, e1]
  simp only [e10l, e10r, e0l, e0r]
  show Cert.Pool.weight (x1 (ix2 b n)) * ((_ + _) * Ideal.div (Ideal.ofBits .f32 0x3F800000#32) (Ideal.ofBits .f32 0x3F800000#32 + Ideal.exp (-(_ + _)))) = _
  rw [Ideal.ofBits_one_f32]
  rfl

end Cert.ReferenceIdeal.Pooled

end
-- ==== Proof.lean ====
/-
  Pooling gated node features into graphs: the tiled kernel against the plain reference, on the extended reals.

  Both programs take node features X [500000, 128], integer ownership weights M [128, 500000], a data matrix and bias
  (Wt, bt) and a gate matrix and bias (Wg, bg), and produce the [128, 128] array whose entry (b, d) is

      Σ_n  M(b, n) · ( (Σ_s X(n, s)·Wt(s, d) + bt(d)) · σ(Σ_s X(n, s)·Wg(s, d) + bg(d)) ),      σ(y) = 1 / (1 + e^(−y)).

  The reference computes it in one piece: two matrix products, the sigmoid spelled out as a quotient, an entrywise
  product, and one matrix product with the weights converted to floats. The kernel pads the node axis with zeros to
  123 blocks of 4096 rows, and over a grid of 123 points keeps a running [128, 128] total: each point adds its block's
  contribution (computed with the matrix unit on narrower floats, which on the extended reals are the same numbers)
  and the last point writes the total out.

  On the extended reals the two agree entry by entry. The kernel's sigmoid operation is by definition the reference's
  quotient; a matrix product into a zero accumulator is a plain sum of products; a padded row carries the integer weight
  zero and 0 · x = 0 for every extended real x, so it adds nothing whatever the padded features are; and a sum taken
  block by block with a running total is the plain sum, since addition of extended reals is commutative and
  associative. Nothing else is used, so the inputs' finiteness is never opened.

  The three frame claims are the generated frame runs (the reference's being its run with the result dropped), the
  idealization rewrote nothing, and the value claim sets the kernel's run, read as the running total (Total, StepAt,
  Blocks, Bridge), beside the reference's run read one operation at a time (RefPooled), both at the specification's
  `pooled` (Spec).
-/
import proofs.«113481_j21801253994883_1_alg».proof.Defs
import proofs.«113481_j21801253994883_1_alg».proof.Proof.Gen.Kernel
import proofs.«113481_j21801253994883_1_alg».proof.Proof.Gen.Kernel.Skeleton
import proofs.«113481_j21801253994883_1_alg».proof.Proof.Gen.Kernel.Launch
import proofs.«113481_j21801253994883_1_alg».proof.Proof.Gen.Kernel.Points
import proofs.«113481_j21801253994883_1_alg».proof.Proof.Gen.Kernel.Frame
import proofs.«113481_j21801253994883_1_alg».proof.Proof.Gen.KernelIdeal
import proofs.«113481_j21801253994883_1_alg».proof.Proof.Gen.KernelIdeal.Skeleton
import proofs.«113481_j21801253994883_1_alg».proof.Proof.Gen.KernelIdeal.Launch
import proofs.«113481_j21801253994883_1_alg».proof.Proof.Gen.KernelIdeal.Points
import proofs.«113481_j21801253994883_1_alg».proof.Proof.Gen.KernelIdeal.Frame
import proofs.«113481_j21801253994883_1_alg».proof.Proof.Gen.KernelIdeal.Value
import proofs.«113481_j21801253994883_1_alg».proof.Proof.Gen.ReferenceIdeal
import proofs.«113481_j21801253994883_1_alg».proof.Proof.Gen.ReferenceIdeal.Run
import proofs.«113481_j21801253994883_1_alg».proof.Proof.Gen.ReferenceIdeal.Read
import proofs.«113481_j21801253994883_1_alg».proof.Proof.Gen.Pre_finite_inputs
import proofs.«113481_j21801253994883_1_alg».proof.Proof.Bridge
import proofs.«113481_j21801253994883_1_alg».proof.Proof.RefPooled
import Idealize.ShloMosaic.Adequacy
import Idealize.ShloMosaic.Init

noncomputable section

namespace Cert.Proof

open Idealize.ShloMosaic Idealize.SL.Sem

/-- The kernel runs to the end without a fault and leaves its arguments as they were. -/
theorem frame_kernel [Cert.Kernel.Facts] [Cert.Pre_finite_inputs.Facts] : Cert.frame_Kernel :=
  fun m ρ _ => Cert.Kernel.Gen.frame m ρ

/-- So does its reading on the extended reals. -/
theorem frame_kernel_ideal [Cert.KernelIdeal.Facts] [Cert.Pre_finite_inputs.Facts] : Cert.frame_KernelIdeal :=
  fun m ρ _ => Cert.KernelIdeal.Gen.frame m ρ

/-- The reference's run, with what it says about the result dropped. -/
theorem frame_reference_ideal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From arguments that agree, the kernel's result array ends at the running total after the last point and the
    reference's at its last stage; both are `pooled` of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Acc.result m c, Cert.KernelIdeal.Acc.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Pooled.stage_eq_pooled, (hagree c).1, (hagree c).2.1,
    (hagree c).2.2.1, (hagree c).2.2.2.1, (hagree c).2.2.2.2.1, (hagree c).2.2.2.2.2]
  exact (Cert.KernelIdeal.Acc.result_eq_pooled m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
